-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn {F : FTy → Type} [FloatOps F] (main_arg0 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  main_v3
-- ==== Kernel.lean ====
abbrev S8x64x256x256 : Shape := ⟨4, ![8, 64, 256, 256]⟩
abbrev S512x256x256 : Shape := ⟨3, ![512, 256, 256]⟩
abbrev S512x128x2x128x2 : Shape := ⟨5, ![512, 128, 2, 128, 2]⟩
abbrev S512x2x2x128x128 : Shape := ⟨5, ![512, 2, 2, 128, 128]⟩
abbrev S512x4x128x128 : Shape := ⟨4, ![512, 4, 128, 128]⟩
abbrev S512x128x128 : Shape := ⟨3, ![512, 128, 128]⟩
abbrev S16x4x128x128 : Shape := ⟨4, ![16, 4, 128, 128]⟩
abbrev S16x128x128 : Shape := ⟨3, ![16, 128, 128]⟩
abbrev S16x1x128x128 : Shape := ⟨4, ![16, 1, 128, 128]⟩
abbrev S8x64x128x128 : Shape := ⟨4, ![8, 64, 128, 128]⟩

abbrev nBuf : Space → Nat
  | .hbm => 7
  | .vmem => 4
  | .smem => 0
  | _ => 0

abbrev bufTy : (tb : Table) → Fin (tcTables nBuf tb) → BufTy
  | .hbm, ⟨0, _⟩ => ⟨S8x64x256x256, .f32⟩
  | .hbm, ⟨1, _⟩ => ⟨S512x256x256, .f32⟩
  | .hbm, ⟨2, _⟩ => ⟨S512x128x2x128x2, .f32⟩
  | .hbm, ⟨3, _⟩ => ⟨S512x2x2x128x128, .f32⟩
  | .hbm, ⟨4, _⟩ => ⟨S512x4x128x128, .f32⟩
  | .hbm, ⟨5, _⟩ => ⟨S512x128x128, .f32⟩
  | .hbm, ⟨6, _⟩ => ⟨S8x64x128x128, .f32⟩
  | .local _ .vmem, ⟨0, _⟩ => ⟨S16x4x128x128, .f32⟩
  | .local _ .vmem, ⟨1, _⟩ => ⟨S16x4x128x128, .f32⟩
  | .local _ .vmem, ⟨2, _⟩ => ⟨S16x128x128, .f32⟩
  | .local _ .vmem, ⟨3, _⟩ => ⟨S16x128x128, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x64x256x256_S512x256x256 : S8x64x256x256.ShapeCasts S512x256x256
  shapeCasts_S512x256x256_S512x128x2x128x2 : S512x256x256.ShapeCasts S512x128x2x128x2
  transposes_S512x128x2x128x2_S512x2x2x128x128_0_2_4_1_3 : S512x128x2x128x2.Transposes [0, 2, 4, 1, 3] S512x2x2x128x128
  shapeCasts_S512x2x2x128x128_S512x4x128x128 : S512x2x2x128x128.ShapeCasts S512x4x128x128
  inb_S16x4x128x128_S16x1x128x128_0_0_0_0 : ∀ a, (![0, 0, 0, 0] : Fin 4 → Nat) a + S16x1x128x128.size a ≤ S16x4x128x128.size a
  h_S16x1x128x128 : 0 < S16x1x128x128.numel
  shapeCasts_S16x1x128x128_S16x128x128 : S16x1x128x128.ShapeCasts S16x128x128
  inb_S16x4x128x128_S16x1x128x128_0_1_0_0 : ∀ a, (![0, 1, 0, 0] : Fin 4 → Nat) a + S16x1x128x128.size a ≤ S16x4x128x128.size a
  inb_S16x4x128x128_S16x1x128x128_0_2_0_0 : ∀ a, (![0, 2, 0, 0] : Fin 4 → Nat) a + S16x1x128x128.size a ≤ S16x4x128x128.size a
  inb_S16x4x128x128_S16x1x128x128_0_3_0_0 : ∀ a, (![0, 3, 0, 0] : Fin 4 → Nat) a + S16x1x128x128.size a ≤ S16x4x128x128.size a
  inb_S16x128x128_S16x128x128_0_0_0 : ∀ a, (![0, 0, 0] : Fin 3 → Nat) a + S16x128x128.size a ≤ S16x128x128.size a
  h_S16x128x128 : 0 < S16x128x128.numel
  shapeCasts_S512x128x128_S8x64x128x128 : S512x128x128.ShapeCasts S8x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x128x128.size a ≤ S512x4x128x128.size a
  hwx0_0 : ∀ i : grid0.Coords, EltTy.bits .f32 = 32 ∨ (Rect.block (s := S512x4x128x128) S16x4x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S512x128x128.size a
  hwx0_1 : ∀ i : grid0.Coords, EltTy.bits .f32 = 32 ∨ (Rect.block (s := S512x128x128) S16x128x128.size (cc0_transform_1 i) (hinb0_1 i)).WholeWords (EltTy.packing .f32)

variable [Facts₀]

abbrev win0_0 : Pipeline.Window sig grid0 :=
  Pipeline.Window.ofSpec (Memref.whole main_v3) S16x4x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S512x128x2x128x2 : Shape := ⟨5, ![512, 128, 2, 128, 2]⟩
abbrev S512x128x128x2x2 : Shape := ⟨5, ![512, 128, 128, 2, 2]⟩
abbrev S512x128x128x4 : Shape := ⟨4, ![512, 128, 128, 4]⟩
abbrev S512x128x128x2 : Shape := ⟨4, ![512, 128, 128, 2]⟩
abbrev S_ : Shape := ⟨0, ![]⟩
abbrev S512x128x128 : Shape := ⟨3, ![512, 128, 128]⟩
abbrev S512x128x128x1 : Shape := ⟨4, ![512, 128, 128, 1]⟩
abbrev S512x128x128x1x4 : Shape := ⟨5, ![512, 128, 128, 1, 4]⟩
abbrev S512x128x128x2x1 : Shape := ⟨5, ![512, 128, 128, 2, 1]⟩
abbrev S512x128x128x2x4 : Shape := ⟨5, ![512, 128, 128, 2, 4]⟩
abbrev S8x64x128x128 : Shape := ⟨4, ![8, 64, 128, 128]⟩

abbrev nBuf : Space → Nat
  | .hbm => 92
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S512x128x2x128x2, .f32⟩
  | .hbm, ⟨2, _⟩ => ⟨S512x128x128x2x2, .f32⟩
  | .hbm, ⟨3, _⟩ => ⟨S512x128x128x4, .f32⟩
  | .hbm, ⟨4, _⟩ => ⟨S512x128x128x2, .f32⟩
  | .hbm, ⟨5, _⟩ => ⟨S_, .f32⟩
  | .hbm, ⟨6, _⟩ => ⟨S512x128x128, .f32⟩
  | .hbm, ⟨7, _⟩ => ⟨S_, .f32⟩
  | .hbm, ⟨8, _⟩ => ⟨S512x128x128, .f32⟩
  | .hbm, ⟨9, _⟩ => ⟨S512x128x128, .f32⟩
  | .hbm, ⟨10, _⟩ => ⟨S_, .f32⟩
  | .hbm, ⟨11, _⟩ => ⟨S512x128x128, .f32⟩
  | .hbm, ⟨12, _⟩ => ⟨S_, .f32⟩
  | .hbm, ⟨13, _⟩ => ⟨S512x128x128, .f32⟩
  | .hbm, ⟨14, _⟩ => ⟨S512x128x128, .f32⟩
  | .hbm, ⟨15, _⟩ => ⟨S512x128x128x1, .f32⟩
  | .hbm, ⟨16, _⟩ => ⟨S512x128x128x1, .f32⟩
  | .hbm, ⟨17, _⟩ => ⟨S512x128x128x2, .f32⟩
  | .hbm, ⟨18, _⟩ => ⟨S_, .f32⟩
  | .hbm, ⟨19, _⟩ => ⟨S512x128x128, .f32⟩
  | .hbm, ⟨20, _⟩ => ⟨S512x128x128x1, .f32⟩
  | .hbm, ⟨21, _⟩ => ⟨S_, .f32⟩
  | .hbm, ⟨22, _⟩ => ⟨S512x128x128x1, .f32⟩
  | .hbm, ⟨23, _⟩ => ⟨S512x128x128x1, .f32⟩
  | .hbm, ⟨24, _⟩ => ⟨S512x128x128x4, .f32⟩
  | .hbm, ⟨25, _⟩ => ⟨S512x128x128x4, .f32⟩
  | .hbm, ⟨26, _⟩ => ⟨S512x128x128x4, .f32⟩
  | .hbm, ⟨27, _⟩ => ⟨S512x128x128x2, .f32⟩
  | .hbm, ⟨28, _⟩ => ⟨S_, .f32⟩
  | .hbm, ⟨29, _⟩ => ⟨S512x128x128, .f32⟩
  | .hbm, ⟨30, _⟩ => ⟨S_, .f32⟩
  | .hbm, ⟨31, _⟩ => ⟨S512x128x128, .f32⟩
  | .hbm, ⟨32, _⟩ => ⟨S512x128x128, .f32⟩
  | .hbm, ⟨33, _⟩ => ⟨S_, .f32⟩
  | .hbm, ⟨34, _⟩ => ⟨S512x128x128, .f32⟩
  | .hbm, ⟨35, _⟩ => ⟨S_, .f32⟩
  | .hbm, ⟨36, _⟩ => ⟨S512x128x128, .f32⟩
  | .hbm, ⟨37, _⟩ => ⟨S512x128x128, .f32⟩
  | .hbm, ⟨38, _⟩ => ⟨S512x128x128x1, .f32⟩
  | .hbm, ⟨39, _⟩ => ⟨S512x128x128x1, .f32⟩
  | .hbm, ⟨40, _⟩ => ⟨S512x128x128x2, .f32⟩
  | .hbm, ⟨41, _⟩ => ⟨S_, .f32⟩
  | .hbm, ⟨42, _⟩ => ⟨S512x128x128x2, .f32⟩
  | .hbm, ⟨43, _⟩ => ⟨S512x128x128x2, .f32⟩
  | .hbm, ⟨44, _⟩ => ⟨S512x128x128x1x4, .f32⟩
  | .hbm, ⟨45, _⟩ => ⟨S512x128x128x2x1, .f32⟩
  | .hbm, ⟨46, _⟩ => ⟨S512x128x128x2x4, .f32⟩
  | .hbm, ⟨47, _⟩ => ⟨S512x128x128x2x4, .f32⟩
  | .hbm, ⟨48, _⟩ => ⟨S512x128x128x2x4, .f32⟩
  | .hbm, ⟨49, _⟩ => ⟨S512x128x128x2x1, .f32⟩
  | .hbm, ⟨50, _⟩ => ⟨S512x128x128x2x4, .f32⟩
  | .hbm, ⟨51, _⟩ => ⟨S512x128x128x2x4, .f32⟩
  | .hbm, ⟨52, _⟩ => ⟨S_, .f32⟩
  | .hbm, ⟨53, _⟩ => ⟨S512x128x128x2x4, .f32⟩
  | .hbm, ⟨54, _⟩ => ⟨S512x128x128x2x4, .f32⟩
  | .hbm, ⟨55, _⟩ => ⟨S512x128x128x2x4, .f32⟩
  | .hbm, ⟨56, _⟩ => ⟨S512x128x128x2x4, .f32⟩
  | .hbm, ⟨57, _⟩ => ⟨S_, .f32⟩
  | .hbm, ⟨58, _⟩ => ⟨S512x128x128x4, .f32⟩
  | .hbm, ⟨59, _⟩ => ⟨S_, .f32⟩
  | .hbm, ⟨60, _⟩ => ⟨S512x128x128, .f32⟩
  | .hbm, ⟨61, _⟩ => ⟨S512x128x128x1, .f32⟩
  | .hbm, ⟨62, _⟩ => ⟨S_, .f32⟩
  | .hbm, ⟨63, _⟩ => ⟨S512x128x128x4, .f32⟩
  | .hbm, ⟨64, _⟩ => ⟨S_, .f32⟩
  | .hbm, ⟨65, _⟩ => ⟨S512x128x128x4, .f32⟩
  | .hbm, ⟨66, _⟩ => ⟨S512x128x128x4, .f32⟩
  | .hbm, ⟨67, _⟩ => ⟨S512x128x128x1, .f32⟩
  | .hbm, ⟨68, _⟩ => ⟨S512x128x128x1, .i1⟩
  | .hbm, ⟨69, _⟩ => ⟨S512x128x128x1, .f32⟩
  | .hbm, ⟨70, _⟩ => ⟨S_, .f32⟩
  | .hbm, ⟨71, _⟩ => ⟨S512x128x128x1, .f32⟩
  | .hbm, ⟨72, _⟩ => ⟨S512x128x128x1, .i1⟩
  | .hbm, ⟨73, _⟩ => ⟨S512x128x128x1, .i1⟩
  | .hbm, ⟨74, _⟩ => ⟨S512x128x128x1, .i1⟩
  | .hbm, ⟨75, _⟩ => ⟨S_, .f32⟩
  | .hbm, ⟨76, _⟩ => ⟨S512x128x128, .f32⟩
  | .hbm, ⟨77, _⟩ => ⟨S512x128x128x1, .f32⟩
  | .hbm, ⟨78, _⟩ => ⟨S_, .f32⟩
  | .hbm, ⟨79, _⟩ => ⟨S512x128x128x1, .f32⟩
  | .hbm, ⟨80, _⟩ => ⟨S512x128x128x1, .f32⟩
  | .hbm, ⟨81, _⟩ => ⟨S512x128x128x4, .f32⟩
  | .hbm, ⟨82, _⟩ => ⟨S_, .f32⟩
  | .hbm, ⟨83, _⟩ => ⟨S512x128x128, .f32⟩
  | .hbm, ⟨84, _⟩ => ⟨S512x128x128x1, .f32⟩
  | .hbm, ⟨85, _⟩ => ⟨S_, .f32⟩
  | .hbm, ⟨86, _⟩ => ⟨S512x128x128, .f32⟩
  | .hbm, ⟨87, _⟩ => ⟨S512x128x128x1, .f32⟩
  | .hbm, ⟨88, _⟩ => ⟨S512x128x128x1, .f32⟩
  | .hbm, ⟨89, _⟩ => ⟨S512x128x128x1, .f32⟩
  | .hbm, ⟨90, _⟩ => ⟨S512x128x128x1, .f32⟩
  | .hbm, ⟨91, _⟩ => ⟨S8x64x128x128, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_cst_8 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_9 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_10 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_11 : Ref sig .tc := ⟨.hbm, 57, rfl⟩
abbrev main_v44 : Ref sig .tc := ⟨.hbm, 58, rfl⟩
abbrev main_cst_12 : Ref sig .tc := ⟨.hbm, 59, rfl⟩
abbrev main_v45 : Ref sig .tc := ⟨.hbm, 60, rfl⟩
abbrev main_v46 : Ref sig .tc := ⟨.hbm, 61, rfl⟩
abbrev main_cst_13 : Ref sig .tc := ⟨.hbm, 62, rfl⟩
abbrev main_v47 : Ref sig .tc := ⟨.hbm, 63, rfl⟩
abbrev main_cst_14 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_15 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_16 : Ref sig .tc := ⟨.hbm, 75, rfl⟩
abbrev main_v57 : Ref sig .tc := ⟨.hbm, 76, rfl⟩
abbrev main_v58 : Ref sig .tc := ⟨.hbm, 77, rfl⟩
abbrev main_cst_17 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_18 : Ref sig .tc := ⟨.hbm, 82, rfl⟩
abbrev main_v62 : Ref sig .tc := ⟨.hbm, 83, rfl⟩
abbrev main_v63 : Ref sig .tc := ⟨.hbm, 84, rfl⟩
abbrev main_cst_19 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]

class Facts₀ : Prop where
  shapeCasts_S8x64x256x256_S512x128x2x128x2 : S8x64x256x256.ShapeCasts S512x128x2x128x2
  transposes_S512x128x2x128x2_S512x128x128x2x2_0_1_3_2_4 : S512x128x2x128x2.Transposes [0, 1, 3, 2, 4] S512x128x128x2x2
  shapeCasts_S512x128x128x2x2_S512x128x128x4 : S512x128x128x2x2.ShapeCasts S512x128x128x4
  slices_S512x128x128x4_S512x128x128x2_0_0_0_1 : S512x128x128x4.Slices ![0, 0, 0, 1] S512x128x128x2
  reducesTo_S512x128x128x2_S512x128x128_d3 : S512x128x128x2.ReducesTo [3] S512x128x128
  h_S_ : 0 < S_.numel
  bcast_S_S512x128x128 : S_.BroadcastsInDim S512x128x128 (![] : Fin 0 → Fin S512x128x128.rank)
  reducesTo_S512x128x128x4_S512x128x128_d3 : S512x128x128x4.ReducesTo [3] S512x128x128
  bcast_S512x128x128_S512x128x128x1_0_1_2 : S512x128x128.BroadcastsInDim S512x128x128x1 (![0, 1, 2] : Fin 3 → Fin S512x128x128x1.rank)
  concatenates_S512x128x128x1_S512x128x128x1_S512x128x128x2_d3 : Shape.Concatenates [S512x128x128x1, S512x128x128x1] S512x128x128x2 3
  bcast_S_S512x128x128x1 : S_.BroadcastsInDim S512x128x128x1 (![] : Fin 0 → Fin S512x128x128x1.rank)
  bcast_S512x128x128x1_S512x128x128x4_0_1_2_3 : S512x128x128x1.BroadcastsInDim S512x128x128x4 (![0, 1, 2, 3] : Fin 4 → Fin S512x128x128x4.rank)
  bcast_S_S512x128x128x2 : S_.BroadcastsInDim S512x128x128x2 (![] : Fin 0 → Fin S512x128x128x2.rank)
  bcast_S512x128x128x4_S512x128x128x1x4_0_1_2_4 : S512x128x128x4.BroadcastsInDim S512x128x128x1x4 (![0, 1, 2, 4] : Fin 4 → Fin S512x128x128x1x4.rank)
  bcast_S512x128x128x2_S512x128x128x2x1_0_1_2_3 : S512x128x128x2.BroadcastsInDim S512x128x128x2x1 (![0, 1, 2, 3] : Fin 4 → Fin S512x128x128x2x1.rank)
  bcast_S512x128x128x1x4_S512x128x128x2x4_0_1_2_3_4 : S512x128x128x1x4.BroadcastsInDim S512x128x128x2x4 (![0, 1, 2, 3, 4] : Fin 5 → Fin S512x128x128x2x4.rank)
  bcast_S512x128x128x2x1_S512x128x128x2x4_0_1_2_3_4 : S512x128x128x2x1.BroadcastsInDim S512x128x128x2x4 (![0, 1, 2, 3, 4] : Fin 5 → Fin S512x128x128x2x4.rank)
  bcast_S_S512x128x128x2x4 : S_.BroadcastsInDim S512x128x128x2x4 (![] : Fin 0 → Fin S512x128x128x2x4.rank)
  reducesTo_S512x128x128x2x4_S512x128x128x4_d3 : S512x128x128x2x4.ReducesTo [3] S512x128x128x4
  bcast_S_S512x128x128x4 : S_.BroadcastsInDim S512x128x128x4 (![] : Fin 0 → Fin S512x128x128x4.rank)
  slices_S512x128x128x4_S512x128x128x1_0_0_0_1 : S512x128x128x4.Slices ![0, 0, 0, 1] S512x128x128x1
  slices_S512x128x128x2_S512x128x128x1_0_0_0_1 : S512x128x128x2.Slices ![0, 0, 0, 1] S512x128x128x1
  shapeCasts_S512x128x128x1_S8x64x128x128 : S512x128x128x1.ShapeCasts S8x64x128x128

variable [Facts₀]

class Facts : Prop extends Facts₀ where

variable [Facts]
-- ==== Proof.Spec.lean ====
/-
  The pooled value of one 2x2 window, as a function of its four entries, on the extended reals.

  A window w = (w 0, w 1, w 2, w 3) is read row-major (top-left, top-right, bottom-left, bottom-right).
  Two "band means" of four numbers are used throughout: the mean of the middle two and the mean of all four.
  From the window: the band means m0, m1 and their mean v; the absolute deviations |w n - v| and THEIR band means
  plus a small constant, s0 and s1 (both positive); the Gaussian memberships exp(-1/2 ((w n - m_h)/s_h)^2) for the two
  bands h and the four entries n; per entry their maximum and their mean over the bands; the threshold, the least
  of the four maxima. The pooled value is the plain mean m1 when the second entry's mean membership reaches the
  threshold; otherwise v when s1 is below a second small constant; otherwise the membership-weighted mean of the
  window.

  This file spells that function in the arrangement one of the two programs uses (products with 1/2 and 1/4,
  a reciprocal 1/s formed once, sums and extrema written out term by term).
-/
import Idealize.ShloMosaic.PureOps.Ideal
import Idealize.ShloMosaic.Lib.ValueIdx

noncomputable section

namespace Cert.FuzzyPool

open Idealize.ShloMosaic

/-- The float words the two programs share. -/
abbrev cHalf : EReal := Ideal.ofBits .f32 0x3F000000#32
abbrev cQuarter : EReal := Ideal.ofBits .f32 0x3E800000#32
abbrev cEps : EReal := Ideal.ofBits .f32 0x38D1B717#32
abbrev cOne : EReal := Ideal.ofBits .f32 0x3F800000#32
abbrev cNegHalf : EReal := Ideal.ofBits .f32 0xBF000000#32
abbrev cThr : EReal := Ideal.ofBits .f32 0x3A83126F#32

/-- The Gaussian membership of a scaled deviation d: exp((-1/2 · d) · d). -/
def gauss (d : EReal) : EReal := Ideal.exp ((cNegHalf * d) * d)

section
variable (w : Fin 4 → EReal)

/-- Mean of the middle two entries. -/
def kmm0 : EReal := (w 1 + w 2) * cHalf
/-- Mean of all four entries. -/
def kmm1 : EReal := (((w 0 + w 1) + w 2) + w 3) * cQuarter
/-- Mean of the two band means. -/
def vavg : EReal := (kmm0 w + kmm1 w) * cHalf
/-- Absolute deviation of entry n from that mean. -/
def om (n : Fin 4) : EReal := max (w n - vavg w) (-(w n - vavg w))
/-- The two spreads: band means of the deviations, plus the small constant. -/
def sg0 : EReal := (om w 1 + om w 2) * cHalf + cEps
def sg1 : EReal := (((om w 0 + om w 1) + om w 2) + om w 3) * cQuarter + cEps
/-- Memberships of entry n in the two bands. -/
def p0 (n : Fin 4) : EReal := gauss ((w n - kmm0 w) * Ideal.div cOne (sg0 w))
def p1 (n : Fin 4) : EReal := gauss ((w n - kmm1 w) * Ideal.div cOne (sg1 w))
/-- Their maximum, -/
def pm (n : Fin 4) : EReal := max (p0 w n) (p1 w n)
/-- the least of the four maxima, -/
def thr : EReal := min (min (pm w 0) (pm w 1)) (min (pm w 2) (pm w 3))
/-- and their mean. -/
def av (n : Fin 4) : EReal := (p0 w n + p1 w n) * cHalf
/-- The two conditions, as bits. -/
def prim : BitVec 1 := Ideal.cmp .oge (av w 1) (thr w)
def scond : BitVec 1 := Ideal.cmp .olt (sg1 w) cThr
def sec : BitVec 1 := IntOp.andi (IntOp.xori (prim w) 1#1) (scond w)
/-- Total membership and membership-weighted total. -/
def spi : EReal := ((av w 0 + av w 1) + av w 2) + av w 3
def spix : EReal := ((av w 0 * w 0 + av w 1 * w 1) + av w 2 * w 2) + av w 3 * w 3
/-- The pooled value. -/
def pool : EReal :=
  Scalar.select (prim w) (kmm1 w) (Scalar.select (sec w) (vavg w) (Ideal.div (spix w) (spi w)))

end

end Cert.FuzzyPool

end
-- ==== Proof.RefForm.lean ====
/-
  The same pooled value of a 2x2 window, in the arrangement the other program uses: every mean is a sum started
  from zero and divided by the number of terms, the two band means are held as a two-entry family indexed by the
  band, a deviation is divided by its spread, the per-entry maximum over the two bands is a supremum and the
  threshold an infimum over the four entries.
-/
import proofs.«136437_j4123168604216_2_alg».proof.Proof.Spec

noncomputable section

open scoped BigOperators

namespace Cert.FuzzyPool

open Idealize.ShloMosaic

abbrev cZero : EReal := Ideal.ofBits .f32 0x00000000#32
abbrev cTwo : EReal := Ideal.ofBits .f32 0x40000000#32
abbrev cFour : EReal := Ideal.ofBits .f32 0x40800000#32

/-- The middle two entries of a window: entry 1 + k for k < 2. -/
def mid (k : Fin 2) : Fin 4 := ⟨1 + k.val, by have := k.isLt; omega⟩

section
variable (w : Fin 4 → EReal)

/-- Mean of the middle two / of all four entries of any four numbers. -/
def mean2 (f : Fin 4 → EReal) : EReal := Ideal.div (cZero + ∑ k : Fin 2, f (mid k)) cTwo
def mean4 (f : Fin 4 → EReal) : EReal := Ideal.div (cZero + ∑ k : Fin 4, f k) cFour
/-- The two band means, by band. -/
def rkmm (h : Fin 2) : EReal := if h.val = 0 then mean2 w else mean4 w
/-- Their mean. -/
def rvavg : EReal := Ideal.div (cZero + ∑ h : Fin 2, rkmm w h) cTwo
/-- Absolute deviations. -/
def rom (n : Fin 4) : EReal := max (w n - rvavg w) (-(w n - rvavg w))
/-- The two spreads, by band. -/
def rsg (h : Fin 2) : EReal := (if h.val = 0 then mean2 (rom w) else mean4 (rom w)) + cEps
/-- Scaled deviation and membership of entry n in band h. -/
def rdiff (h : Fin 2) (n : Fin 4) : EReal := Ideal.div (w n - rkmm w h) (rsg w h)
def rpi (h : Fin 2) (n : Fin 4) : EReal := Ideal.exp ((cNegHalf * rdiff w h n) * rdiff w h n)
def rpm (n : Fin 4) : EReal := ⨆ h : Fin 2, rpi w h n
def rthr : EReal := ⨅ n : Fin 4, rpm w n
def rav (n : Fin 4) : EReal := Ideal.div (cZero + ∑ h : Fin 2, rpi w h n) cTwo
def rprim : BitVec 1 := Ideal.cmp .oge (rav w 1) (rthr w)
def rscond : BitVec 1 := Ideal.cmp .olt (rsg w 1) cThr
def rsec : BitVec 1 := IntOp.andi (~~~ (rprim w)) (rscond w)
def rden : EReal := Ideal.div (cZero + ∑ n : Fin 4, rav w n * w n) (cZero + ∑ n : Fin 4, rav w n)
def rpool : EReal :=
  Scalar.select (rprim w) (mean4 w) (Scalar.select (rsec w) (rvavg w) (rden w))

end

end Cert.FuzzyPool

end
-- ==== Proof.Algebra.lean ====
/-
  The two arrangements of the pooled value of a window agree on all extended reals.

  What joins them, stage by stage:
  * a sum started from zero and divided by 2 or 4 is the sum of the listed terms times 1/2 or 1/4 (division by a
    nonzero real is the product with its reciprocal, at the infinities too; 1/2 and 1/4 are exact as floats);
  * a spread is positive whatever the window holds — a sum of absolute values times 1/2 or 1/4 is not negative, and a
    positive constant is added — so dividing by it is multiplying by its reciprocal 1/s;
  * a supremum over the two bands is the maximum of the two, an infimum over the four entries the minimum of the
    four, in any grouping;
  * on one-bit words, negation is exclusive-or with 1.
  No entry of the window needs to be finite.
-/
import proofs.«136437_j4123168604216_2_alg».proof.Proof.RefForm
import Idealize.ShloMosaic.PureOps.Ideal.Laws

noncomputable section

open scoped BigOperators

namespace Cert.FuzzyPool

open Idealize.ShloMosaic

/-! ## The float words as reals -/

theorem zero_eq : cZero = 0 := Ideal.ofBits_zero_f32
theorem two_eq : cTwo = ((2 : ℝ) : EReal) := by
  simp [Ideal.ofBits, Ideal.ieee, -EReal.coe_mul]; norm_num
theorem four_eq : cFour = ((4 : ℝ) : EReal) := by
  simp [Ideal.ofBits, Ideal.ieee, -EReal.coe_mul]; norm_num
theorem half_eq : cHalf = ((1 / 2 : ℝ) : EReal) := by
  simp [Ideal.ofBits, Ideal.ieee, -EReal.coe_mul]; norm_num
theorem quarter_eq : cQuarter = ((1 / 4 : ℝ) : EReal) := by
  simp [Ideal.ofBits, Ideal.ieee, -EReal.coe_mul]; norm_num
theorem one_eq : cOne = 1 := by
  simp [Ideal.ofBits, Ideal.ieee, -EReal.coe_mul]; norm_num
theorem eps_pos : (0 : EReal) < cEps := by
  simp [Ideal.ofBits, Ideal.ieee, -EReal.coe_mul]
theorem half_nonneg : (0 : EReal) ≤ cHalf := by
  rw [half_eq]; exact EReal.coe_nonneg.mpr (by norm_num)
theorem quarter_nonneg : (0 : EReal) ≤ cQuarter := by
  rw [quarter_eq]; exact EReal.coe_nonneg.mpr (by norm_num)

/-! ## Means -/

theorem mean2_eq (f : Fin 4 → EReal) : mean2 f = (f 1 + f 2) * cHalf := by
  unfold mean2
  rw [zero_eq, two_eq, half_eq, Ideal.div_coe (by norm_num : (2 : ℝ) ≠ 0), zero_add, Fin.sum_univ_two]; rfl

theorem mean4_eq (f : Fin 4 → EReal) : mean4 f = (((f 0 + f 1) + f 2) + f 3) * cQuarter := by
  unfold mean4
  rw [zero_eq, four_eq, quarter_eq, Ideal.div_coe (by norm_num : (4 : ℝ) ≠ 0), zero_add, Fin.sum_univ_four]

theorem rkmm_zero (w : Fin 4 → EReal) : rkmm w 0 = kmm0 w := by
  unfold rkmm kmm0; rw [if_pos (by decide), mean2_eq]
theorem rkmm_one (w : Fin 4 → EReal) : rkmm w 1 = kmm1 w := by
  unfold rkmm kmm1; rw [if_neg (by decide), mean4_eq]

theorem rvavg_eq (w : Fin 4 → EReal) : rvavg w = vavg w := by
  unfold rvavg vavg
  rw [zero_eq, two_eq, half_eq, Ideal.div_coe (by norm_num : (2 : ℝ) ≠ 0), zero_add, Fin.sum_univ_two,
    rkmm_zero, rkmm_one]

theorem rom_eq (w : Fin 4 → EReal) : rom w = om w := by
  funext n; unfold rom om; rw [rvavg_eq]

theorem rsg_zero (w : Fin 4 → EReal) : rsg w 0 = sg0 w := by
  unfold rsg sg0; rw [if_pos (by decide), mean2_eq, rom_eq]
theorem rsg_one (w : Fin 4 → EReal) : rsg w 1 = sg1 w := by
  unfold rsg sg1; rw [if_neg (by decide), mean4_eq, rom_eq]

/-! ## The spreads are positive -/

theorem om_nonneg (w : Fin 4 → EReal) (n : Fin 4) : 0 ≤ om w n := by
  unfold om
  rcases le_total 0 (w n - vavg w) with h | h
  · exact le_max_of_le_left h
  · exact le_max_of_le_right (by rw [EReal.le_neg, neg_zero]; exact h)

theorem sg0_pos (w : Fin 4 → EReal) : 0 < sg0 w := by
  unfold sg0
  exact lt_of_lt_of_le eps_pos
    (le_add_of_nonneg_left (mul_nonneg (add_nonneg (om_nonneg w 1) (om_nonneg w 2)) half_nonneg))

theorem sg1_pos (w : Fin 4 → EReal) : 0 < sg1 w := by
  unfold sg1
  exact lt_of_lt_of_le eps_pos
    (le_add_of_nonneg_left (mul_nonneg (add_nonneg (add_nonneg (add_nonneg (om_nonneg w 0) (om_nonneg w 1))
      (om_nonneg w 2)) (om_nonneg w 3)) quarter_nonneg))

/-- Dividing by a nonzero spread is multiplying by its reciprocal. -/
theorem div_eq_mul_recip (a s : EReal) (hs : s ≠ 0) : Ideal.div a s = a * Ideal.div cOne s := by
  unfold Ideal.div; rw [if_neg hs, if_neg hs, one_eq, one_mul]

/-! ## Memberships, extrema, means -/

theorem rpi_zero (w : Fin 4 → EReal) (n : Fin 4) : rpi w 0 n = p0 w n := by
  unfold rpi p0 gauss rdiff
  rw [rkmm_zero, rsg_zero, div_eq_mul_recip _ _ (sg0_pos w).ne']

theorem rpi_one (w : Fin 4 → EReal) (n : Fin 4) : rpi w 1 n = p1 w n := by
  unfold rpi p1 gauss rdiff
  rw [rkmm_one, rsg_one, div_eq_mul_recip _ _ (sg1_pos w).ne']

theorem rpm_eq (w : Fin 4 → EReal) (n : Fin 4) : rpm w n = pm w n := by
  unfold rpm pm
  rw [← rpi_zero, ← rpi_one]
  apply le_antisymm
  · refine iSup_le fun h => ?_
    fin_cases h
    · exact le_max_left _ _
    · exact le_max_right _ _
  · exact max_le (le_iSup (fun h => rpi w h n) 0) (le_iSup (fun h => rpi w h n) 1)

theorem rthr_eq (w : Fin 4 → EReal) : rthr w = thr w := by
  unfold rthr thr
  rw [← rpm_eq w 0, ← rpm_eq w 1, ← rpm_eq w 2, ← rpm_eq w 3]
  apply le_antisymm
  · exact le_min (le_min (iInf_le _ 0) (iInf_le _ 1)) (le_min (iInf_le _ 2) (iInf_le _ 3))
  · refine le_iInf fun n => ?_
    fin_cases n
    · exact (min_le_left _ _).trans (min_le_left _ _)
    · exact (min_le_left _ _).trans (min_le_right _ _)
    · exact (min_le_right _ _).trans (min_le_left _ _)
    · exact (min_le_right _ _).trans (min_le_right _ _)

theorem rav_eq (w : Fin 4 → EReal) (n : Fin 4) : rav w n = av w n := by
  unfold rav av
  rw [zero_eq, two_eq, half_eq, Ideal.div_coe (by norm_num : (2 : ℝ) ≠ 0), zero_add, Fin.sum_univ_two,
    rpi_zero, rpi_one]

/-! ## The conditions and the pooled value -/

theorem rprim_eq (w : Fin 4 → EReal) : rprim w = prim w := by
  unfold rprim prim; rw [rav_eq, rthr_eq]

theorem rscond_eq (w : Fin 4 → EReal) : rscond w = scond w := by
  unfold rscond scond; rw [rsg_one]

theorem not_eq_xor_one : ∀ p : BitVec 1, ~~~p = IntOp.xori p 1#1 := by decide

theorem rsec_eq (w : Fin 4 → EReal) : rsec w = sec w := by
  unfold rsec sec; rw [rprim_eq, rscond_eq, not_eq_xor_one]

theorem rden_eq (w : Fin 4 → EReal) : rden w = Ideal.div (spix w) (spi w) := by
  unfold rden spix spi
  rw [zero_eq, zero_add, zero_add, Fin.sum_univ_four, Fin.sum_univ_four]
  simp only [rav_eq]

/-- The two arrangements are one function of the window. -/
theorem rpool_eq (w : Fin 4 → EReal) : rpool w = pool w := by
  unfold rpool pool
  rw [rprim_eq, rsec_eq, rvavg_eq, rden_eq, mean4_eq]; rfl

end Cert.FuzzyPool

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMinReduce.lean ====
/-
  Minima and total sums at the extended reals, for any shapes.

  A float minimum-reduction over ONE axis started from +inf (the word 0x7F800000), read at a reduced index, is the
  infimum over that axis's coordinates of the operand at the index with the coordinate put back: for a kernel's lane
  reduction (`minReduce_single`) and for the host's one-operand reduce with a minimum body (`hostMinReduce_single`).
  Both rest on two small facts: the word 0x7F800000 denotes +inf, and a fold of min started from +inf over a whole
  finite range is the infimum over the range. Also: a total sum is unchanged by re-laying the array in another shape.
-/
import Idealize.ShloMosaic.PureOps.Ideal.Laws
import Idealize.ShloMosaic.PureOps.Reduce

noncomputable section

open scoped BigOperators

namespace Cert.Lib.MinReduce

open Idealize.ShloMosaic

/-- The f32 word 0x7F800000 denotes +inf. -/
theorem ofBits_inf_f32 : Ideal.ofBits .f32 0x7F800000#32 = (⊤ : EReal) := by
  simp [Ideal.ofBits, Ideal.ieee]

/-- A fold of min started from +inf over all of a finite index range is the infimum over the range. -/
theorem fold_min_top_eq_iInf {K : Nat} (f : Fin K → EReal) :
    (Finset.univ : Finset (Fin K)).fold min (⊤ : EReal) f = ⨅ k, f k := by
  rw [← Finset.inf_univ_eq_iInf]
  rfl

/-- A kernel's lane minimum over one axis started from +inf, at reduced index j: the infimum over that axis's
    coordinates k of the operand at j with k put back (`h.lift j k`). The accumulator's proof is taken as the
    printed program spells it. -/
theorem minReduce_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold]
  refine (h.fold_filter_drop_single _ _ src j).trans ?_
  show (Finset.univ : Finset (Fin (s.size a))).fold min (Ideal.ofBits .f32 0x7F800000#32) (fun k => src (h.lift j k)) = _
  rw [ofBits_inf_f32]
  exact fold_min_top_eq_iInf _

/-- The host's one-operand reduce with a minimum body over one axis, its initial value the +inf constant, at reduced
    index j: the same infimum (`h'` is the host's shape fact, `h` the lane form of the same fact, which names the
    index with the coordinate put back). -/
theorem hostMinReduce_single {s t u : Shape} {a : Fin s.rank} (x : FVec Ideal s .f32) (h' : s.ReducesTo [a] t)
    (h : s.Reduces [a] t) (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu]
  show (Finset.univ : Finset (Fin (s.size a))).fold min (Ideal.ofBits .f32 0x7F800000#32) (fun k => x (h.lift j k)) = _
  rw [ofBits_inf_f32]
  exact fold_min_top_eq_iInf _

/-- A total sum passes through a re-laying of the array in another shape of as many entries. -/
theorem sum_shapeCast {s t : Shape} (x : s.Idx → EReal) (h : s.ShapeCasts t) :
    ∑ j : t.Idx, shapeCast t x h j = ∑ i : s.Idx, x i :=
  Equiv.sum_comp (Shape.reshapeEquiv h) x

end Cert.Lib.MinReduce

end
-- ==== Proof.RefStages.lean ====
/-
  The reference program read one stage at a time at an index, for one 2x2 window.

  Every intermediate array of the reference has leading axes [512, 128, 128]: image-channel p, output row r, output
  column c. Its entry at (p, r, c, ...) depends only on the window at (p, r, c), the four entries
  W p r c n = xw (p, r, c, n) of the unfolded input. Each lemma below says so for one stage: the stage at index i
  is a named function (RefForm.lean) of the window at (i 0, i 1, i 2) and of i's remaining coordinates.
-/
import proofs.«136437_j4123168604216_2_alg».proof.Proof.RefForm
import proofs.«136437_j4123168604216_2_alg».proof.Proof.LibMaxReduce
import proofs.«136437_j4123168604216_2_alg».proof.Proof.LibMinReduce
import proofs.«136437_j4123168604216_2_alg».proof.Proof.Gen.ReferenceIdeal.Read
import Idealize.ShloMosaic.Lib.ValueIdx
import Idealize.ShloMosaic.Lib.Pipeline.Value

noncomputable section

open scoped BigOperators

namespace Cert.FuzzyPool.RefStages

open Cert.ReferenceIdeal Cert.ReferenceIdeal.Gen Cert.ReferenceIdeal.Read Idealize.ShloMosaic Idealize.ShloMosaic.ValueIdx
open Cert.FuzzyPool

/-- The input array's type. -/
abbrev X := (⟨S8x64x256x256, .f32⟩ : BufTy).Contents (Elt Ideal)

variable (x0 : X)

/-- The window at (p, r, c): the four entries of the unfolded input there. -/
def W (p : Fin 512) (r c : Fin 128) : Fin 4 → EReal := fun n => val_main_v2 (F := Ideal) x0 (ix4 p r c n)

theorem fin1_val (k : Fin 1) : k.val = 0 := by omega

theorem l2 (i : S512x128x128x4.Idx) : val_main_v2 (F := Ideal) x0 i = W x0 (i 0) (i 1) (i 2) (i 3) :=
  congrArg (val_main_v2 (F := Ideal) x0) (eq_ix4 i)

theorem l3 (i : S512x128x128x2.Idx) : val_main_v3 (F := Ideal) x0 i = W x0 (i 0) (i 1) (i 2) (mid (i 3)) := by
  rw [val_main_v3_apply, l2]; rfl

theorem l4 (i : S512x128x128.Idx) :
    val_main_v4 (F := Ideal) x0 i = cZero + ∑ k : Fin 2, W x0 (i 0) (i 1) (i 2) (mid k) := by
  rw [val_main_v4_apply]; simp only [l3]; rfl

theorem l6 (i : S512x128x128.Idx) : val_main_v6 (F := Ideal) x0 i = mean2 (W x0 (i 0) (i 1) (i 2)) := by
  rw [val_main_v6_apply, l4, val_main_v5_apply]; rfl

theorem l7 (i : S512x128x128.Idx) :
    val_main_v7 (F := Ideal) x0 i = cZero + ∑ k : Fin 4, W x0 (i 0) (i 1) (i 2) k := by
  rw [val_main_v7_apply]; simp only [l2]; rfl

theorem l9 (i : S512x128x128.Idx) : val_main_v9 (F := Ideal) x0 i = mean4 (W x0 (i 0) (i 1) (i 2)) := by
  rw [val_main_v9_apply, l7, val_main_v8_apply]; rfl

theorem l10 (i : S512x128x128x1.Idx) : val_main_v10 (F := Ideal) x0 i = mean2 (W x0 (i 0) (i 1) (i 2)) := by
  rw [val_main_v10_apply, l6]; rfl

theorem l11 (i : S512x128x128x1.Idx) : val_main_v11 (F := Ideal) x0 i = mean4 (W x0 (i 0) (i 1) (i 2)) := by
  rw [val_main_v11_apply, l9]; rfl

/-- Two [512,128,128,1] arrays laid side by side along the last axis, read at an index: the first where the last
    coordinate is 0, the second where it is 1. -/
theorem concat_last (a b : FVec Ideal S512x128x128x1 .f32)
    (hc : Shape.Concatenates [S512x128x128x1, S512x128x128x1] S512x128x128x2 3) (i : S512x128x128x2.Idx) :
    concatenate S512x128x128x2 3 [⟨S512x128x128x1, a⟩, ⟨S512x128x128x1, b⟩] hc i
      = if (i 3).val = 0 then a (ix4 (i 0) (i 1) (i 2) (0 : Fin 1)) else b (ix4 (i 0) (i 1) (i 2) (0 : Fin 1)) := by
  have h3 : (i 3).val < 2 := (i 3).isLt
  by_cases h : (i 3).val = 0
  · rw [if_pos h]
    exact concatenate_pair_apply_left 3 a b hc i rfl (ix4 (i 0) (i 1) (i 2) (0 : Fin 1)) (fun b => by
      match b with
      | ⟨0, _⟩ => rfl
      | ⟨1, _⟩ => rfl
      | ⟨2, _⟩ => rfl
      | ⟨3, _⟩ => exact h.symm)
  · rw [if_neg h]
    exact concatenate_pair_apply_right 3 a b hc i rfl rfl (ix4 (i 0) (i 1) (i 2) (0 : Fin 1)) (fun b hb => by
      match b, hb with
      | ⟨0, _⟩, _ => rfl
      | ⟨1, _⟩, _ => rfl
      | ⟨2, _⟩, _ => rfl
      | ⟨3, _⟩, hb => exact absurd rfl hb) (by show 0 + 1 = (i 3).val; omega)

theorem l12 (i : S512x128x128x2.Idx) : val_main_v12 (F := Ideal) x0 i = rkmm (W x0 (i 0) (i 1) (i 2)) (i 3) := by
  unfold val_main_v12
  rw [concat_last, l10, l11]; rfl

theorem l16 (i : S512x128x128x1.Idx) : val_main_v16 (F := Ideal) x0 i = rvavg (W x0 (i 0) (i 1) (i 2)) := by
  rw [val_main_v16_apply, val_main_v14_apply, val_main_v13_apply, val_main_v15_apply]; simp only [l12]; rfl

theorem l19 (i : S512x128x128x4.Idx) : val_main_v19 (F := Ideal) x0 i = rom (W x0 (i 0) (i 1) (i 2)) (i 3) := by
  rw [val_main_v19_apply, val_main_v18_apply, val_main_v17_apply, l16, l2]; rfl

theorem l20 (i : S512x128x128x2.Idx) :
    val_main_v20 (F := Ideal) x0 i = rom (W x0 (i 0) (i 1) (i 2)) (mid (i 3)) := by
  rw [val_main_v20_apply, l19]; rfl

theorem l23 (i : S512x128x128.Idx) :
    val_main_v23 (F := Ideal) x0 i = mean2 (rom (W x0 (i 0) (i 1) (i 2))) := by
  rw [val_main_v23_apply, val_main_v21_apply, val_main_v22_apply]; simp only [l20]; rfl

theorem l26 (i : S512x128x128.Idx) :
    val_main_v26 (F := Ideal) x0 i = mean4 (rom (W x0 (i 0) (i 1) (i 2))) := by
  rw [val_main_v26_apply, val_main_v24_apply, val_main_v25_apply]; simp only [l19]; rfl

theorem l27 (i : S512x128x128x1.Idx) :
    val_main_v27 (F := Ideal) x0 i = mean2 (rom (W x0 (i 0) (i 1) (i 2))) := by
  rw [val_main_v27_apply, l23]; rfl

theorem l28 (i : S512x128x128x1.Idx) :
    val_main_v28 (F := Ideal) x0 i = mean4 (rom (W x0 (i 0) (i 1) (i 2))) := by
  rw [val_main_v28_apply, l26]; rfl

theorem l31 (i : S512x128x128x2.Idx) : val_main_v31 (F := Ideal) x0 i = rsg (W x0 (i 0) (i 1) (i 2)) (i 3) := by
  rw [val_main_v31_apply, val_main_v30_apply]
  unfold val_main_v29
  rw [concat_last, l27, l28]; rfl

theorem l34 (i : S512x128x128x2x4.Idx) : val_main_v34 (F := Ideal) x0 i = W x0 (i 0) (i 1) (i 2) (i 4) := by
  rw [val_main_v34_apply, val_main_v32_apply, l2]; rfl

theorem l35 (i : S512x128x128x2x4.Idx) :
    val_main_v35 (F := Ideal) x0 i = rkmm (W x0 (i 0) (i 1) (i 2)) (i 3) := by
  rw [val_main_v35_apply, val_main_v33_apply, l12]; rfl

theorem l38 (i : S512x128x128x2x4.Idx) :
    val_main_v38 (F := Ideal) x0 i = rsg (W x0 (i 0) (i 1) (i 2)) (i 3) := by
  rw [val_main_v38_apply, val_main_v37_apply, l31]; rfl

theorem l39 (i : S512x128x128x2x4.Idx) :
    val_main_v39 (F := Ideal) x0 i = rdiff (W x0 (i 0) (i 1) (i 2)) (i 3) (i 4) := by
  rw [val_main_v39_apply, val_main_v36_apply, l34, l35, l38]; rfl

theorem l43 (i : S512x128x128x2x4.Idx) :
    val_main_v43 (F := Ideal) x0 i = rpi (W x0 (i 0) (i 1) (i 2)) (i 3) (i 4) := by
  rw [val_main_v43_apply, val_main_v42_apply, val_main_v41_apply, val_main_v40_apply, l39]; rfl

theorem l44 (i : S512x128x128x4.Idx) : val_main_v44 (F := Ideal) x0 i = rpm (W x0 (i 0) (i 1) (i 2)) (i 3) := by
  unfold val_main_v44 val_main_cst_11
  rw [Cert.Lib.MaxReduce.hostMaxReduce_single _ _ (by decide) _ i]
  simp only [l43]; rfl

theorem l45 (i : S512x128x128.Idx) : val_main_v45 (F := Ideal) x0 i = rthr (W x0 (i 0) (i 1) (i 2)) := by
  unfold val_main_v45 val_main_cst_12
  rw [Cert.Lib.MinReduce.hostMinReduce_single _ _ (by decide) _ i]
  simp only [l44]; rfl

theorem l46 (i : S512x128x128x1.Idx) : val_main_v46 (F := Ideal) x0 i = rthr (W x0 (i 0) (i 1) (i 2)) := by
  rw [val_main_v46_apply, l45]; rfl

theorem l49 (i : S512x128x128x4.Idx) : val_main_v49 (F := Ideal) x0 i = rav (W x0 (i 0) (i 1) (i 2)) (i 3) := by
  rw [val_main_v49_apply, val_main_v47_apply, val_main_v48_apply]; simp only [l43]; rfl

theorem l50 (i : S512x128x128x1.Idx) : val_main_v50 (F := Ideal) x0 i = rav (W x0 (i 0) (i 1) (i 2)) 1 := by
  rw [val_main_v50_apply, l49]
  refine congrArg (rav (W x0 (i 0) (i 1) (i 2))) (Fin.ext ?_)
  show 1 + (i 3).val = 1
  have := fin1_val (i 3); omega

theorem l51 (i : S512x128x128x1.Idx) : val_main_v51 (F := Ideal) x0 i = rprim (W x0 (i 0) (i 1) (i 2)) := by
  rw [val_main_v51_apply, l50, l46]; rfl

theorem l52 (i : S512x128x128x1.Idx) : val_main_v52 (F := Ideal) x0 i = rsg (W x0 (i 0) (i 1) (i 2)) 1 := by
  rw [val_main_v52_apply, l31]
  refine congrArg (rsg (W x0 (i 0) (i 1) (i 2))) (Fin.ext ?_)
  show 1 + (i 3).val = 1
  have := fin1_val (i 3); omega

theorem l56 (i : S512x128x128x1.Idx) : val_main_v56 (F := Ideal) x0 i = rsec (W x0 (i 0) (i 1) (i 2)) := by
  rw [val_main_v56_apply, val_main_v55_apply, val_main_v54_apply, l51, l52, val_main_v53_apply]; rfl

theorem l60 (i : S512x128x128x1.Idx) : val_main_v60 (F := Ideal) x0 i = mean4 (W x0 (i 0) (i 1) (i 2)) := by
  rw [val_main_v60_apply, val_main_v58_apply, val_main_v57_apply, val_main_v59_apply]; simp only [l2]; rfl

theorem l61 (i : S512x128x128x4.Idx) :
    val_main_v61 (F := Ideal) x0 i = rav (W x0 (i 0) (i 1) (i 2)) (i 3) * W x0 (i 0) (i 1) (i 2) (i 3) := by
  rw [val_main_v61_apply, l49, l2]; rfl

theorem l66 (i : S512x128x128x1.Idx) : val_main_v66 (F := Ideal) x0 i = rden (W x0 (i 0) (i 1) (i 2)) := by
  rw [val_main_v66_apply, val_main_v63_apply, val_main_v62_apply, val_main_v65_apply, val_main_v64_apply]
  simp only [l61, l49]; rfl

theorem l68 (i : S512x128x128x1.Idx) : val_main_v68 (F := Ideal) x0 i = rpool (W x0 (i 0) (i 1) (i 2)) := by
  rw [val_main_v68_apply, val_main_v67_apply, l51, l60, l56, l16, l66]; rfl

end Cert.FuzzyPool.RefStages

end
-- ==== Proof.Window.lean ====
/-
  Which input entries an output entry depends on, and the whole result as one function of the input.

  Output entry (b, ch, r, c) of the [8, 64, 128, 128] result is the pooled value of the 2x2 window of input plane
  (b, ch) whose top-left corner is (2r, 2c); the window's n-th entry, row-major, sits at row 2r + n / 2 and column
  2c + n % 2.
-/
import proofs.«136437_j4123168604216_2_alg».proof.Proof.Spec

noncomputable section

namespace Cert.FuzzyPool

open Idealize.ShloMosaic Idealize.ShloMosaic.ValueIdx

abbrev SIn : Shape := ⟨4, ![8, 64, 256, 256]⟩
abbrev SOut : Shape := ⟨4, ![8, 64, 128, 128]⟩

/-- The input index of the n-th entry of output entry i's window. -/
def src (i : SOut.Idx) (n : Fin 4) : SIn.Idx :=
  ix4 (n0 := 8) (n1 := 64) (n2 := 256) (n3 := 256) (i 0) (i 1)
    ⟨2 * (i 2).val + n.val / 2, by
      have h2 : (i 2).val < 128 := (i 2).isLt
      have hn : n.val < 4 := n.isLt
      omega⟩
    ⟨2 * (i 3).val + n.val % 2, by
      have h3 : (i 3).val < 128 := (i 3).isLt
      omega⟩

/-- The result, as one function of the input array: entry i is the pooled value of i's window. -/
def G (x : SIn.Idx → EReal) : SOut.Idx → EReal := fun i => pool (fun n => x (src i n))

end Cert.FuzzyPool

end
-- ==== Proof.RefValue.lean ====
/-
  The reference's result, entry by entry, is the reference-arrangement pooled value of the entry's window of the input.
-/
import proofs.«136437_j4123168604216_2_alg».proof.Proof.RefStages
import proofs.«136437_j4123168604216_2_alg».proof.Proof.Window

noncomputable section

open scoped BigOperators

namespace Cert.FuzzyPool.RefStages

open Cert.ReferenceIdeal Cert.ReferenceIdeal.Gen Cert.ReferenceIdeal.Read Idealize.ShloMosaic Idealize.ShloMosaic.ValueIdx
open Cert.FuzzyPool

variable (x0 : X)

/-- The unfolded input at (p, r, c, n) is the input at plane p (batch p / 64, channel p % 64), row 2r + n / 2, column
    2c + n % 2: the unfolding is a re-laying [512, 128, 2, 128, 2] of the input, two of its axes exchanged, and
    the two window axes merged; all three keep or permute row-major coordinates. -/
theorem W_at (p : Fin 512) (r c : Fin 128) (n : Fin 4) :
    W x0 p r c n = x0 (ix4 (n0 := 8) (n1 := 64) (n2 := 256) (n3 := 256)
      ⟨p.val / 64, by have := p.isLt; omega⟩ ⟨p.val % 64, by omega⟩
      ⟨2 * r.val + n.val / 2, by have := r.isLt; have := n.isLt; omega⟩
      ⟨2 * c.val + n.val % 2, by have := c.isLt; omega⟩) := by
  unfold W
  rw [val_main_v2_apply, val_main_v1_apply, val_main_v0_apply]
  refine congrArg x0 (funext fun a => Fin.ext ?_)
  have hp : p.val < 512 := p.isLt
  have hr : r.val < 128 := r.isLt
  have hc : c.val < 128 := c.isLt
  have hn : n.val < 4 := n.isLt
  have e0 : (((p.val * 128 + r.val) * 128 + c.val) * 4 + n.val) / 65536 = p.val := by omega
  have e1 : (((p.val * 128 + r.val) * 128 + c.val) * 4 + n.val) / 512 % 128 = r.val := by omega
  have e2 : (((p.val * 128 + r.val) * 128 + c.val) * 4 + n.val) / 4 % 128 = c.val := by omega
  have e3 : (((p.val * 128 + r.val) * 128 + c.val) * 4 + n.val) / 2 % 2 = n.val / 2 := by omega
  have e4 : (((p.val * 128 + r.val) * 128 + c.val) * 4 + n.val) % 2 = n.val % 2 := by omega
  have f1 : ((((p.val * 128 + r.val) * 2 + n.val / 2) * 128 + c.val) * 2 + n.val % 2) / 65536 = p.val := by omega
  have f2 : ((((p.val * 128 + r.val) * 2 + n.val / 2) * 128 + c.val) * 2 + n.val % 2) / 256
      = (p.val * 128 + r.val) * 2 + n.val / 2 := by omega
  match a with
  | ⟨0, _⟩ => dsimp only [ix4]; rw [e0, e1, e2, e3, e4]; clear e0 e1 e2 e3 e4; omega
  | ⟨1, _⟩ => dsimp only [ix4]; rw [e0, e1, e2, e3, e4, f1]
  | ⟨2, _⟩ => dsimp only [ix4]; rw [e0, e1, e2, e3, e4, f2]; clear e0 e1 e2 e3 e4 f1 f2; omega
  | ⟨3, _⟩ => dsimp only [ix4]; rw [e0, e1, e2, e3, e4]; clear e0 e1 e2 e3 e4; omega

/-- At the position output entry i is computed at, that is the n-th entry of i's window. -/
theorem W_eq (i : S8x64x128x128.Idx) (n : Fin 4) :
    W x0 ((idx_main_v69 i) 0) ((idx_main_v69 i) 1) ((idx_main_v69 i) 2) n = x0 (src i n) := by
  show W x0 (⟨(idx_main_v69 i 0).val, (idx_main_v69 i 0).isLt⟩ : Fin 512) (⟨(idx_main_v69 i 1).val, (idx_main_v69 i 1).isLt⟩ : Fin 128)
    (⟨(idx_main_v69 i 2).val, (idx_main_v69 i 2).isLt⟩ : Fin 128) n = _
  rw [W_at]
  refine congrArg x0 (funext fun a => Fin.ext ?_)
  have h0 : (i 0).val < 8 := (i 0).isLt
  have h1 : (i 1).val < 64 := (i 1).isLt
  have h2 : (i 2).val < 128 := (i 2).isLt
  have h3 : (i 3).val < 128 := (i 3).isLt
  have hn : n.val < 4 := n.isLt
  have e0 : ((((i 0).val * 64 + (i 1).val) * 128 + (i 2).val) * 128 + (i 3).val) / 16384 = (i 0).val * 64 + (i 1).val := by omega
  have e1 : ((((i 0).val * 64 + (i 1).val) * 128 + (i 2).val) * 128 + (i 3).val) / 128 % 128 = (i 2).val := by omega
  have e2 : ((((i 0).val * 64 + (i 1).val) * 128 + (i 2).val) * 128 + (i 3).val) / 1 % 128 = (i 3).val := by omega
  match a with
  | ⟨0, _⟩ => dsimp only [src, ix4]; rw [e0]; omega
  | ⟨1, _⟩ => dsimp only [src, ix4]; rw [e0]; omega
  | ⟨2, _⟩ => dsimp only [src, ix4]; rw [e1]
  | ⟨3, _⟩ => dsimp only [src, ix4]; rw [e2]

theorem ref_at (i : S8x64x128x128.Idx) :
    val_main_v69 (F := Ideal) x0 i = rpool (fun n => x0 (src i n)) := by
  rw [val_main_v69_apply, l68]
  exact congrArg rpool (funext fun n => W_eq x0 i n)

end Cert.FuzzyPool.RefStages

end
-- ==== Proof.KernelPay.lean ====
/-
  The value the kernel body stores, entry by entry.

  The body takes the four window entries as four [16, 128, 128] arrays (one per position in the window) and computes
  every intermediate of the pooled value with whole-array operations that act entry by entry. So entry j of what
  it stores is the pooled value (Spec.lean) of the four numbers found at entry j of those four arrays: the two sides
  below are the same expression, once the whole-array operations are read at j.
-/
import proofs.«136437_j4123168604216_2_alg».proof.Proof.Spec
import proofs.«136437_j4123168604216_2_alg».proof.Proof.Gen.KernelIdeal.Skeleton
import Idealize.ShloMosaic.Lib.Pipeline.Value

noncomputable section

namespace Cert.FuzzyPool

open Idealize.ShloMosaic Cert.KernelIdeal Cert.KernelIdeal.Gen

/-- Entry j of the stored array is the pooled value of the window (entry j of each of the four arrays). -/
theorem payload_at (v0 v2 v4 v6 : Vec Ideal S16x1x128x128 .f32) (j : S16x128x128.Idx) :
    k0_pay1 (k0_pay2 v0) (k0_pay3 v2) (k0_pay4 v4) (k0_pay5 v6) (k0_pay7 v0 v2 v4 v6) (k0_pay8 v0 v2 v4 v6)
      (k0_pay13 (k0_pay12 v0 v2 v4 v6))
      (k0_pay16 (k0_pay2 v0) (k0_pay6 v2 v4) (k0_pay11 v0 v2 v4 v6))
      (k0_pay17 (k0_pay3 v2) (k0_pay6 v2 v4) (k0_pay11 v0 v2 v4 v6))
      (k0_pay18 (k0_pay4 v4) (k0_pay6 v2 v4) (k0_pay11 v0 v2 v4 v6))
      (k0_pay19 (k0_pay5 v6) (k0_pay6 v2 v4) (k0_pay11 v0 v2 v4 v6))
      (k0_pay20 (k0_pay5 v6) (k0_pay7 v0 v2 v4 v6) (k0_pay12 v0 v2 v4 v6))
      (k0_pay21 (k0_pay2 v0) (k0_pay7 v0 v2 v4 v6) (k0_pay12 v0 v2 v4 v6))
      (k0_pay22 (k0_pay3 v2) (k0_pay7 v0 v2 v4 v6) (k0_pay12 v0 v2 v4 v6))
      (k0_pay23 (k0_pay4 v4) (k0_pay7 v0 v2 v4 v6) (k0_pay12 v0 v2 v4 v6)) j
    = pool ![k0_pay2 v0 j, k0_pay3 v2 j, k0_pay4 v4 j, k0_pay5 v6 j] := by
  rfl

end Cert.FuzzyPool

end
-- ==== Proof.KernelLayout.lean ====
/-
  How the two programs lay the input out, read at an index.

  One program first re-lays the input [8, 64, 256, 256] as 512 image planes, splits each plane's rows and columns
  into (128, 2) pairs, moves the two in-window coordinates in front of the window's position, and merges them into
  one axis of four: entry (p, n, r, c) of the result is the input at plane p (batch p / 64, channel p % 64),
  row 2r + n / 2, column 2c + n % 2. Its pooled planes [512, 128, 128] are re-laid [8, 64, 128, 128] at the end:
  entry (b, ch, r, c) is plane 64 b + ch at (r, c). Inside the kernel body each of the four window entries is
  a [16, 1, 128, 128] slab of the [16, 4, 128, 128] block, viewed [16, 128, 128].
-/
import proofs.«136437_j4123168604216_2_alg».proof.KernelIdeal
import proofs.«136437_j4123168604216_2_alg».proof.Proof.Window
import Idealize.ShloMosaic.Lib.Pipeline.Value
import Idealize.ShloMosaic.Lib.Pipeline.FrameBody
import Idealize.ShloMosaic.Lib.ValueIdx

noncomputable section

namespace Cert.FuzzyPool

open Idealize.ShloMosaic Idealize.ShloMosaic.ValueIdx Cert.KernelIdeal

variable {α : Type}

/-- The input laid out window entry by window entry: [512, 4, 128, 128]. -/
def planes (x : S8x64x256x256.Idx → α) (h1 : S8x64x256x256.ShapeCasts S512x256x256)
    (h2 : S512x256x256.ShapeCasts S512x128x2x128x2)
    (ht : S512x128x2x128x2.Transposes [0, 2, 4, 1, 3] S512x2x2x128x128)
    (h3 : S512x2x2x128x128.ShapeCasts S512x4x128x128) : S512x4x128x128.Idx → α :=
  shapeCast S512x4x128x128
    (transpose S512x2x2x128x128 [0, 2, 4, 1, 3] (shapeCast S512x128x2x128x2 (shapeCast S512x256x256 x h1) h2) ht) h3

/-- Entry (p, n, r, c) of that layout is the input at plane p, row 2r + n / 2, column 2c + n % 2. -/
theorem planes_at (x : S8x64x256x256.Idx → α) (h1 : S8x64x256x256.ShapeCasts S512x256x256)
    (h2 : S512x256x256.ShapeCasts S512x128x2x128x2)
    (ht : S512x128x2x128x2.Transposes [0, 2, 4, 1, 3] S512x2x2x128x128)
    (h3 : S512x2x2x128x128.ShapeCasts S512x4x128x128) (p : Fin 512) (n : Fin 4) (r c : Fin 128) :
    planes x h1 h2 ht h3 (ix4 p n r c)
      = x (ix4 (n0 := 8) (n1 := 64) (n2 := 256) (n3 := 256)
          ⟨p.val / 64, by have := p.isLt; omega⟩ ⟨p.val % 64, by omega⟩
          ⟨2 * r.val + n.val / 2, by have := r.isLt; have := n.isLt; omega⟩
          ⟨2 * c.val + n.val % 2, by have := c.isLt; omega⟩) := by
  have hp : p.val < 512 := p.isLt
  have hn : n.val < 4 := n.isLt
  have hr : r.val < 128 := r.isLt
  have hc : c.val < 128 := c.isLt
  unfold planes
  refine (shapeCast_apply _ h3 (ix4 p n r c)
    (ix5 p (⟨n.val / 2, by omega⟩ : Fin 2) (⟨n.val % 2, by omega⟩ : Fin 2) r c) ?_).trans ?_
  · rewrite [Shape.rowMajor_val_five, Shape.rowMajor_val_four]
    show (((p.val * 2 + n.val / 2) * 2 + n.val % 2) * 128 + r.val) * 128 + c.val
      = ((p.val * 4 + n.val) * 128 + r.val) * 128 + c.val
    omega
  refine (transpose_apply [0, 2, 4, 1, 3] _ ht _
    (ix5 p r (⟨n.val / 2, by omega⟩ : Fin 2) c (⟨n.val % 2, by omega⟩ : Fin 2)) (fun b => match b with
      | ⟨0, _⟩ => rfl
      | ⟨1, _⟩ => rfl
      | ⟨2, _⟩ => rfl
      | ⟨3, _⟩ => rfl
      | ⟨4, _⟩ => rfl)).trans ?_
  refine (shapeCast_apply _ h2 _
    (ix3 p (⟨2 * r.val + n.val / 2, by omega⟩ : Fin 256) (⟨2 * c.val + n.val % 2, by omega⟩ : Fin 256)) ?_).trans ?_
  · rewrite [Shape.rowMajor_val_three, Shape.rowMajor_val_five]
    show (p.val * 256 + (2 * r.val + n.val / 2)) * 256 + (2 * c.val + n.val % 2)
      = (((p.val * 128 + r.val) * 2 + n.val / 2) * 128 + c.val) * 2 + n.val % 2
    omega
  refine shapeCast_apply _ h1 _ _ ?_
  rewrite [Shape.rowMajor_val_four, Shape.rowMajor_val_three]
  show ((p.val / 64 * 64 + p.val % 64) * 256 + (2 * r.val + n.val / 2)) * 256 + (2 * c.val + n.val % 2)
    = (p.val * 256 + (2 * r.val + n.val / 2)) * 256 + (2 * c.val + n.val % 2)
  omega

/-- The pooled planes re-laid [8, 64, 128, 128]: entry (b, ch, r, c) is plane 64 b + ch at (r, c). -/
theorem relaid_at (y : S512x128x128.Idx → α) (h : S512x128x128.ShapeCasts S8x64x128x128) (i : S8x64x128x128.Idx) :
    shapeCast S8x64x128x128 y h i
      = y (ix3 (⟨(i 0).val * 64 + (i 1).val, by
            have h0 : (i 0).val < 8 := (i 0).isLt
            have h1 : (i 1).val < 64 := (i 1).isLt
            omega⟩ : Fin 512) (⟨(i 2).val, (i 2).isLt⟩ : Fin 128) (⟨(i 3).val, (i 3).isLt⟩ : Fin 128)) := by
  have h0 : (i 0).val < 8 := (i 0).isLt
  have h1 : (i 1).val < 64 := (i 1).isLt
  have h2 : (i 2).val < 128 := (i 2).isLt
  have h3 : (i 3).val < 128 := (i 3).isLt
  refine shapeCast_apply y h i _ ?_
  rewrite [Shape.rowMajor_val_three, Shape.rowMajor_val_four]
  show (((i 0).val * 64 + (i 1).val) * 128 + (i 2).val) * 128 + (i 3).val
    = (((i 0).val * 64 + (i 1).val) * 128 + (i 2).val) * 128 + (i 3).val
  rfl

/-- A window entry's slab of a block, viewed without its unit axis: entry j of the view of slab n is the block at
    (j 0, n, j 1, j 2). -/
theorem slab_at {Val : EltTy → Type} {e : EltTy} (x0 : S16x4x128x128.Idx → Val e) (off : Fin 4 → Nat)
    (inb : ∀ a, off a + S16x1x128x128.size a ≤ S16x4x128x128.size a)
    (h : S16x1x128x128.ShapeCasts S16x128x128) (n : Fin 4)
    (e0 : off 0 = 0) (e1 : off 1 = n.val) (e2 : off 2 = 0) (e3 : off 3 = 0) (j : S16x128x128.Idx) :
    shapeCast S16x128x128 (View.ld (Val := Val) x0 (Rect.unit (s := S16x4x128x128) off S16x1x128x128.size inb)) h j
      = x0 (ix4 (⟨(j 0).val, (j 0).isLt⟩ : Fin 16) n (⟨(j 1).val, (j 1).isLt⟩ : Fin 128)
          (⟨(j 2).val, (j 2).isLt⟩ : Fin 128)) := by
  refine (shapeCast_apply _ h j (ix4 (⟨(j 0).val, (j 0).isLt⟩ : Fin 16) (0 : Fin 1)
    (⟨(j 1).val, (j 1).isLt⟩ : Fin 128) (⟨(j 2).val, (j 2).isLt⟩ : Fin 128)) ?_).trans ?_
  · rewrite [Shape.rowMajor_val_four, Shape.rowMajor_val_three]
    show (((j 0).val * 1 + 0) * 128 + (j 1).val) * 128 + (j 2).val = ((j 0).val * 128 + (j 1).val) * 128 + (j 2).val
    omega
  refine congrArg x0 (funext fun a => Fin.ext ?_)
  match a with
  | ⟨0, _⟩ => show off 0 + 1 * (j 0).val = (j 0).val; omega
  | ⟨1, _⟩ => show off 1 + 1 * 0 = n.val; omega
  | ⟨2, _⟩ => show off 2 + 1 * (j 1).val = (j 1).val; omega
  | ⟨3, _⟩ => show off 3 + 1 * (j 2).val = (j 2).val; omega

end Cert.FuzzyPool

end
-- ==== Proof.KernelBlocks.lean ====
/-
  What the kernel program leaves in its array of pooled planes.

  The grid has 32 points; point t takes planes 16 t ... 16 t + 15 of the laid-out input [512, 4, 128, 128] as a
  [16, 4, 128, 128] block and writes planes 16 t ... 16 t + 15 of the [512, 128, 128] result. Entry (q, r, c) of
  the block it writes is the pooled value of the four entries (q, n, r, c) of the block it took, so the written
  block is a block of ONE function of the laid-out input: plane entry (p, r, c) pools the entries (p, n, r, c). The
  32 blocks tile the result.
-/
import proofs.«136437_j4123168604216_2_alg».proof.Proof.Gen.KernelIdeal.Frame
import proofs.«136437_j4123168604216_2_alg».proof.Proof.KernelPay
import proofs.«136437_j4123168604216_2_alg».proof.Proof.KernelLayout
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.FuzzyPool.KernelSide

open Cert.KernelIdeal Cert.KernelIdeal.Gen Idealize.ShloMosaic.ValueIdx Cert.FuzzyPool

variable (m : (ℓ : Loc nD τ sig) → Buf (Elt Ideal) ℓ)

/-- The pooled planes as a function of the laid-out input. -/
def pooled (xw : S512x4x128x128.Idx → EReal) : S512x128x128.Idx → EReal := fun i =>
  pool (fun n => xw (ix4 (⟨(i 0).val, (i 0).isLt⟩ : Fin 512) n (⟨(i 1).val, (i 1).isLt⟩ : Fin 128)
    (⟨(i 2).val, (i 2).isLt⟩ : Fin 128)))

theorem hz3 : (![0, 0, 0] : Fin 3 → Nat) = fun _ => 0 := funext fun a => by fin_cases a <;> rfl

/-- Both windows are at block t along the plane axis and at block 0 along every other axis. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- An entry of the block point t takes is the laid-out input 16 t planes further on. -/
theorem iblk_at (c : Dev nD) (t : Fin cfg0.N) (y : S16x4x128x128.Idx) (k : S512x4x128x128.Idx)
    (h0 : (k 0).val = 16 * t.val + (y 0).val) (h1 : (k 1).val = (y 1).val) (h2 : (k 2).val = (y 2).val)
    (h3 : (k 3).val = (y 3).val) :
    (iblk m c 0 t : Vec Ideal S16x4x128x128 .f32) y = (V m c main_v3 : S512x4x128x128.Idx → EReal) k := by
  obtain ⟨e0, e1, e2, e3, -, -, -⟩ := idx_facts t
  unfold iblk
  rw [View.read_apply]
  show V m c main_v3 _ = V m c main_v3 _
  congr 1
  funext a
  apply Fin.ext
  match a with
  | ⟨0, _⟩ => show win0_0.index t (0 : Fin 4) * 16 + 1 * (y 0).val = (k 0).val; rw [e0, h0]; omega
  | ⟨1, _⟩ => show win0_0.index t (1 : Fin 4) * 4 + 1 * (y 1).val = (k 1).val; rw [e1, h1]; omega
  | ⟨2, _⟩ => show win0_0.index t (2 : Fin 4) * 128 + 1 * (y 2).val = (k 2).val; rw [e2, h2]; omega
  | ⟨3, _⟩ => show win0_0.index t (3 : Fin 4) * 128 + 1 * (y 3).val = (k 3).val; rw [e3, h3]; omega

/-- The four window entries the body pools at entry j of its result block: the block it took at (j 0, n, j 1, j 2). -/
theorem entries_at (x0 : Vec Ideal S16x4x128x128 .f32) (j : S16x128x128.Idx) :
    (![k0_pay2 (View.ld x0 r0_0) j, k0_pay3 (View.ld x0 r0_1) j, k0_pay4 (View.ld x0 r0_2) j,
        k0_pay5 (View.ld x0 r0_3) j] : Fin 4 → EReal)
      = fun n => x0 (ix4 (⟨(j 0).val, (j 0).isLt⟩ : Fin 16) n (⟨(j 1).val, (j 1).isLt⟩ : Fin 128)
          (⟨(j 2).val, (j 2).isLt⟩ : Fin 128)) := by
  funext n
  match n with
  | ⟨0, _⟩ =>
    show k0_pay2 (View.ld x0 r0_0) j = _
    unfold k0_pay2
    exact slab_at x0 ![0, 0, 0, 0] _ _ (0 : Fin 4) rfl rfl rfl rfl j
  | ⟨1, _⟩ =>
    show k0_pay3 (View.ld x0 r0_1) j = _
    unfold k0_pay3
    exact slab_at x0 ![0, 1, 0, 0] _ _ (1 : Fin 4) rfl rfl rfl rfl j
  | ⟨2, _⟩ =>
    show k0_pay4 (View.ld x0 r0_2) j = _
    unfold k0_pay4
    exact slab_at x0 ![0, 2, 0, 0] _ _ (2 : Fin 4) rfl rfl rfl rfl j
  | ⟨3, _⟩ =>
    show k0_pay5 (View.ld x0 r0_3) j = _
    unfold k0_pay5
    exact slab_at x0 ![0, 3, 0, 0] _ _ (3 : Fin 4) rfl rfl rfl rfl j

/-- What point t writes back is block t of the pooled planes of the laid-out input. -/
theorem flushed_eq (c : Dev nD) (t : Fin cfg0.N) :
    (dats m 0 c).flushed 1 t = ((cfg0.win 1).blk t).view.read (Elt Ideal) (pooled (V m c main_v3)) := by
  obtain ⟨-, -, -, -, e4, e5, e6⟩ := idx_facts t
  show (cfg0.win 1).cut (grid0.coords t) ((dats m 0 c).after 1 t) = _
  rw [after0_1]
  unfold out0_1
  rw [View.canon_unit_zero hz3]
  funext j
  refine (payload_at _ _ _ _ j).trans ?_
  refine (congrArg pool (entries_at (iblk m c 0 t) j)).trans ?_
  rw [View.read_apply]
  show pool _ = pooled (V m c main_v3) (((cfg0.win 1).blk t).view.emb j)
  unfold pooled
  refine congrArg pool (funext fun n => ?_)
  refine iblk_at m c t _ _ ?_ rfl ?_ ?_
  · show win0_1.index t (0 : Fin 3) * 16 + 1 * (j 0).val = 16 * t.val + (j 0).val
    rw [e4]; omega
  · show win0_1.index t (1 : Fin 3) * 128 + 1 * (j 1).val = (j 1).val
    rw [e5]; omega
  · show win0_1.index t (2 : Fin 3) * 128 + 1 * (j 2).val = (j 2).val
    rw [e6]; omega

/-- An index of the pooled planes is in point t's block iff each coordinate is in the block's range on its axis. -/
theorem mem_blk (t : Fin cfg0.N) (i : S512x128x128.Idx) :
    i ∈ ((cfg0.win 1).blk t).view.set ↔ ∀ a : Fin 3, win0_1.index t a * S16x128x128.size a ≤ (i a).val
      ∧ (i a).val < win0_1.index t a * S16x128x128.size a + S16x128x128.size a := by
  show i ∈ ((View.whole main_v4).slice (win0_1.rect t)).set ↔ _
  rw [View.set_slice_whole, Rect.mem_set_unit]
  exact Iff.rfl

/-- Plane p is written by point p / 16: the 32 blocks tile the pooled planes. -/
theorem cover (i : S512x128x128.Idx) :
    ∃ t : Fin cfg0.N, (cfg0.win 1).flush t = true ∧ i ∈ ((cfg0.win 1).blk t).view.set := by
  have h0 : (i 0).val < 512 := (i 0).isLt
  have h1 : (i 1).val < 128 := (i 1).isLt
  have h2 : (i 2).val < 128 := (i 2).isLt
  have hN : cfg0.N = 32 := N_0
  have ht : (i 0).val / 16 < cfg0.N := by rw [hN]; omega
  obtain ⟨-, -, -, -, e4, e5, e6⟩ := idx_facts ⟨(i 0).val / 16, ht⟩
  refine ⟨⟨(i 0).val / 16, ht⟩, flush0_1 _, ?_⟩
  rw [mem_blk]
  intro a
  match a with
  | ⟨0, _⟩ =>
    show win0_1.index ⟨(i 0).val / 16, ht⟩ (0 : Fin 3) * 16 ≤ (i 0).val
      ∧ (i 0).val < win0_1.index ⟨(i 0).val / 16, ht⟩ (0 : Fin 3) * 16 + 16
    rw [e4]; show (i 0).val / 16 * 16 ≤ (i 0).val ∧ (i 0).val < (i 0).val / 16 * 16 + 16; omega
  | ⟨1, _⟩ =>
    show win0_1.index ⟨(i 0).val / 16, ht⟩ (1 : Fin 3) * 128 ≤ (i 1).val
      ∧ (i 1).val < win0_1.index ⟨(i 0).val / 16, ht⟩ (1 : Fin 3) * 128 + 128
    rw [e5]; omega
  | ⟨2, _⟩ =>
    show win0_1.index ⟨(i 0).val / 16, ht⟩ (2 : Fin 3) * 128 ≤ (i 2).val
      ∧ (i 2).val < win0_1.index ⟨(i 0).val / 16, ht⟩ (2 : Fin 3) * 128 + 128
    rw [e6]; omega

/-- So the array of pooled planes ends holding the pooled planes of the laid-out input. -/
theorem final (c : Dev nD) : (dats m 0 c).arrAt 1 cfg0.N = pooled (V m c main_v3) :=
  (dats m 0 c).arrAt_eq_of_cover 1 (pooled (V m c main_v3)) (fun t _ => flushed_eq m c t) cover

end Cert.FuzzyPool.KernelSide

end
-- ==== Proof.KernelRun.lean ====
/-
  The kernel program's run, read: its result is the pooled value of each output entry's window of the input.

  Before the grid runs, the program lays the input out window entry by window entry (four re-layings, no
  arithmetic); the grid then writes the pooled planes; a last re-laying gives the [8, 64, 128, 128] result. Entry
  (b, ch, r, c) of the result is therefore plane 64 b + ch of the pooled planes at (r, c), which pools the laid-out
  input at (64 b + ch, n, r, c), n = 0..3: the input at plane (b, ch), row 2r + n / 2, column 2c + n % 2 — the
  n-th entry of the output entry's window.
-/
import proofs.«136437_j4123168604216_2_alg».proof.Proof.KernelBlocks
import Idealize.ShloMosaic.Lib.StableHlo.Run

noncomputable section

open Idealize.ShloMosaic Idealize.ShloMosaic.TcCoe Idealize.SL.Sem
open Idealize.ShloMosaic.Pipeline (Dat)

namespace Cert.FuzzyPool.KernelSide

open Cert.KernelIdeal Cert.KernelIdeal.Gen Idealize.ShloMosaic.ValueIdx Cert.FuzzyPool

variable (m : (ℓ : Loc nD τ sig) → Buf (Elt Ideal) ℓ) (ρ : Dev nD → PrngReg)

/-- The array the grid reads is the input laid out window entry by window entry. -/
theorem V_planes (c : Dev nD) :
    (V m c main_v3 : S512x4x128x128.Idx → EReal)
      = planes (m ((c : Thread nD τ).loc main_arg0)) shapeCasts_S8x64x256x256_S512x256x256
          shapeCasts_S512x256x256_S512x128x2x128x2 transposes_S512x128x2x128x2_S512x2x2x128x128_0_2_4_1_3
          shapeCasts_S512x2x2x128x128_S512x4x128x128 := by
  show StableHlo.after hostOps0 (fun b => m (c, b)) (Proc.devRef .tc main_v3) = _
  after_results
  rfl

/-- The program's result array after the run: the pooled planes of the laid-out input, re-laid. -/
theorem tail_eq (c : Dev nD) :
    Pipeline.afterTail₀ cfgs (dats m) 0 (V0 m) [hostOps1] c main_v5
      = shapeCast S8x64x128x128 (pooled (V m c main_v3)) shapeCasts_S512x128x128_S8x64x128x128 := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v4) = pooled (V m c main_v3) :=
    (Pipeline.withArrays_arr spec0 launch0.win.arr_inj c _ _ 1).trans (final m c)
  rw [e]
  rfl

/-- The pooled value of output entry i's window, read off the program's result array. -/
theorem result_eq (c : Dev nD) :
    Pipeline.afterTail₀ cfgs (dats m) 0 (V0 m) [hostOps1] c main_v5 = G (m ((c : Thread nD τ).loc main_arg0)) := by
  rw [tail_eq, V_planes]
  funext i
  refine (relaid_at _ _ i).trans ?_
  unfold pooled G
  refine congrArg pool (funext fun n => ?_)
  refine (planes_at _ _ _ _ _ _ n _ _).trans ?_
  refine congrArg (m ((c : Thread nD τ).loc main_arg0)) (funext fun a => Fin.ext ?_)
  have h0 : (i 0).val < 8 := (i 0).isLt
  have h1 : (i 1).val < 64 := (i 1).isLt
  match a with
  | ⟨0, _⟩ => show ((i 0).val * 64 + (i 1).val) / 64 = (i 0).val; omega
  | ⟨1, _⟩ => show ((i 0).val * 64 + (i 1).val) % 64 = (i 1).val; omega
  | ⟨2, _⟩ => rfl
  | ⟨3, _⟩ => rfl

/-- The kernel program's run: every weakly fair execution ends with the result array at the pooled values of the
    input's windows and the input unchanged. -/
theorem run : θ_run defs (onTc (τ := τ) (main (F := Ideal))) ⟨m, fun _ => 0, ρ⟩ (fun r => ∀ c : Dev nD,
      r.2.mem ((c.tc : Thread nD τ).loc main_v5) = G (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c)⟩)
    (run_main m ρ)

end Cert.FuzzyPool.KernelSide

end
-- ==== Proof.lean ====
/-
  The certificate of the fuzzy 2x2 pooling kernel against its array-level reference, on the extended reals.

  Both programs send input x : [8, 64, 256, 256] to a result [8, 64, 128, 128] whose entry (b, ch, r, c) is a
  function of the 2x2 window of plane (b, ch) with top-left corner (2r, 2c) only (Window.lean). The kernel program
  computes that function with products by 1/2 and 1/4 and one reciprocal per spread (Spec.lean); the reference with
  sums divided by their lengths, quotients by the spreads, and extrema taken as reductions (RefForm.lean). The two
  forms agree for every window of extended reals, because every spread is positive (Algebra.lean), so no entry needs
  to be finite. RefStages.lean and RefValue.lean read the reference's run entry by entry; KernelLayout.lean,
  KernelPay.lean, KernelBlocks.lean and KernelRun.lean read the kernel program's run: its re-layings before and after
  the grid, what one grid point writes, and that the 32 written blocks tile the result.

  The three frames are the programs' runs with the results dropped; nothing was rewritten in idealizing the
  kernel program, so there is nothing to preserve.
-/
import proofs.«136437_j4123168604216_2_alg».proof.Defs
import proofs.«136437_j4123168604216_2_alg».proof.Proof.Gen.Kernel
import proofs.«136437_j4123168604216_2_alg».proof.Proof.Gen.Kernel.Skeleton
import proofs.«136437_j4123168604216_2_alg».proof.Proof.Gen.Kernel.Launch
import proofs.«136437_j4123168604216_2_alg».proof.Proof.Gen.Kernel.Points
import proofs.«136437_j4123168604216_2_alg».proof.Proof.Gen.Kernel.Frame
import proofs.«136437_j4123168604216_2_alg».proof.Proof.Gen.KernelIdeal
import proofs.«136437_j4123168604216_2_alg».proof.Proof.Gen.KernelIdeal.Skeleton
import proofs.«136437_j4123168604216_2_alg».proof.Proof.Gen.KernelIdeal.Launch
import proofs.«136437_j4123168604216_2_alg».proof.Proof.Gen.KernelIdeal.Points
import proofs.«136437_j4123168604216_2_alg».proof.Proof.Gen.KernelIdeal.Frame
import proofs.«136437_j4123168604216_2_alg».proof.Proof.Gen.ReferenceIdeal
import proofs.«136437_j4123168604216_2_alg».proof.Proof.Gen.Pre_finite_inputs
import proofs.«136437_j4123168604216_2_alg».proof.Proof.Gen.ReferenceIdeal.Run
import proofs.«136437_j4123168604216_2_alg».proof.Proof.Gen.ReferenceIdeal.Read
import proofs.«136437_j4123168604216_2_alg».proof.Proof.Algebra
import proofs.«136437_j4123168604216_2_alg».proof.Proof.RefValue
import proofs.«136437_j4123168604216_2_alg».proof.Proof.KernelRun
import Idealize.ShloMosaic.Adequacy
import Idealize.ShloMosaic.Init

noncomputable section

namespace Cert.Proof

open Idealize.ShloMosaic Idealize.SL.Sem

/-- The word-level kernel program runs and keeps its input. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its input: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with every result entry at the pooled value of the entry's window of the input:
    the kernel program by its run read block by block, the reference by its run read stage by stage and the
    agreement of the two arrangements of the pooled value. -/
theorem algebraic : Cert.algebraic_KernelIdeal_ReferenceIdeal := by
  intro m ρ m' ρ' _ hagree
  refine ⟨fun c => Cert.FuzzyPool.G (m ((c.tc : Thread Cert.KernelIdeal.nD Cert.KernelIdeal.τ).loc Cert.KernelIdeal.main_arg0)),
    Cert.FuzzyPool.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, hagree c]
  funext i
  rw [Cert.FuzzyPool.RefStages.ref_at, Cert.FuzzyPool.rpool_eq]
  rfl

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
